-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S9x148 : Shape := ⟨2, ![9, 148]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S9x148 : S_.BroadcastsInDim S9x148 (![] : Fin 0 → Fin S9x148.rank)
  reducesTo_S9x148_S_d0_1 : S9x148.ReducesTo [0, 1] S_

variable [Facts]

def fn {F : FTy → Type} [FloatOps F] (main_arg0 : FVec F S100000x64 .f32) (main_arg1 : IVec S2x1600000 32) (main_arg2 : IVec S1600000 32) (main_arg3 : IVec S100000 32) (main_arg4 : FVec F S9x148 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S9x148 .f32 := Host.absf main_arg4
  let main_cst_0 : FVec F S_ .f32 := constant S_ .f32 0x7F800000#32
  let main_v5 : FVec F S9x148 .f32 := broadcastInDim S9x148 ![] bcast_S_S9x148 main_cst_0
  let main_v6 : IVec S9x148 1 := cmpf .olt main_v4 main_v5
  let main_c_1 : IVec S_ 1 := constantI S_ 1 1#1
  let main_v7 : IVec S_ 1 := (fun x v => Host.reduce IntOp.andi x v reducesTo_S9x148_S_d0_1 h_S_) main_v6 main_c_1
  let main_v8 : IVec S_ 1 := andi main_v3 main_v7
  main_v8
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S9x148 : Shape := ⟨2, ![9, 148]⟩
abbrev S1x1600000 : Shape := ⟨2, ![1, 1600000]⟩
abbrev S9x64 : Shape := ⟨2, ![9, 64]⟩
abbrev S9x4 : Shape := ⟨2, ![9, 4]⟩
abbrev S9x12 : Shape := ⟨2, ![9, 12]⟩
abbrev S4 : Shape := ⟨1, ![4]⟩
abbrev S1x4 : Shape := ⟨2, ![1, 4]⟩
abbrev S100000x1 : Shape := ⟨2, ![100000, 1]⟩
abbrev S100000x4 : Shape := ⟨2, ![100000, 4]⟩
abbrev S64x9 : Shape := ⟨2, ![64, 9]⟩
abbrev S100000x9 : Shape := ⟨2, ![100000, 9]⟩
abbrev S4x9 : Shape := ⟨2, ![4, 9]⟩
abbrev S_ : Shape := ⟨0, ![]⟩
abbrev S1600000x1 : Shape := ⟨2, ![1600000, 1]⟩
abbrev S1600000x9 : Shape := ⟨2, ![1600000, 9]⟩
abbrev S12x9 : Shape := ⟨2, ![12, 9]⟩
abbrev S8000x9 : Shape := ⟨2, ![8000, 9]⟩
abbrev S8000x1 : Shape := ⟨2, ![8000, 1]⟩
abbrev S8000x12 : Shape := ⟨2, ![8000, 12]⟩
abbrev S1600000x3x3 : Shape := ⟨3, ![1600000, 3, 3]⟩

abbrev nBuf : Space → Nat
  | .hbm => 56
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .i32⟩
  | .hbm, ⟨3, _⟩ => ⟨S100000, .i32⟩
  | .hbm, ⟨4, _⟩ => ⟨S9x148, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S9x64, .f32⟩
  | .hbm, ⟨10, _⟩ => ⟨S9x64, .f32⟩
  | .hbm, ⟨11, _⟩ => ⟨S9x4, .f32⟩
  | .hbm, ⟨12, _⟩ => ⟨S9x4, .f32⟩
  | .hbm, ⟨13, _⟩ => ⟨S9x12, .f32⟩
  | .hbm, ⟨14, _⟩ => ⟨S4, .i32⟩
  | .hbm, ⟨15, _⟩ => ⟨S1x4, .i32⟩
  | .hbm, ⟨16, _⟩ => ⟨S100000x1, .i32⟩
  | .hbm, ⟨17, _⟩ => ⟨S100000x4, .i32⟩
  | .hbm, ⟨18, _⟩ => ⟨S100000x4, .i32⟩
  | .hbm, ⟨19, _⟩ => ⟨S100000x4, .i1⟩
  | .hbm, ⟨20, _⟩ => ⟨S100000x4, .f32⟩
  | .hbm, ⟨21, _⟩ => ⟨S64x9, .f32⟩
  | .hbm, ⟨22, _⟩ => ⟨S100000x9, .f32⟩
  | .hbm, ⟨23, _⟩ => ⟨S4x9, .f32⟩
  | .hbm, ⟨24, _⟩ => ⟨S100000x9, .f32⟩
  | .hbm, ⟨25, _⟩ => ⟨S100000x9, .f32⟩
  | .hbm, ⟨26, _⟩ => ⟨S64x9, .f32⟩
  | .hbm, ⟨27, _⟩ => ⟨S100000x9, .f32⟩
  | .hbm, ⟨28, _⟩ => ⟨S4x9, .f32⟩
  | .hbm, ⟨29, _⟩ => ⟨S100000x9, .f32⟩
  | .hbm, ⟨30, _⟩ => ⟨S100000x9, .f32⟩
  | .hbm, ⟨31, _⟩ => ⟨S100000x9, .bf16⟩
  | .hbm, ⟨32, _⟩ => ⟨S100000x9, .bf16⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x9, .bf16⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x9, .bf16⟩
  | .hbm, ⟨51, _⟩ => ⟨S12x9, .f32⟩
  | .hbm, ⟨52, _⟩ => ⟨S12x9, .bf16⟩
  | .hbm, ⟨53, _⟩ => ⟨S1600000x1, .i32⟩
  | .hbm, ⟨54, _⟩ => ⟨S1600000x9, .f32⟩
  | .hbm, ⟨55, _⟩ => ⟨S1600000x3x3, .f32⟩
  | .local _ .vmem, ⟨0, _⟩ => ⟨S8000x9, .bf16⟩
  | .local _ .vmem, ⟨1, _⟩ => ⟨S8000x9, .bf16⟩
  | .local _ .vmem, ⟨2, _⟩ => ⟨S8000x9, .bf16⟩
  | .local _ .vmem, ⟨3, _⟩ => ⟨S8000x9, .bf16⟩
  | .local _ .vmem, ⟨4, _⟩ => ⟨S8000x1, .i32⟩
  | .local _ .vmem, ⟨5, _⟩ => ⟨S8000x1, .i32⟩
  | .local _ .vmem, ⟨6, _⟩ => ⟨S12x9, .bf16⟩
  | .local _ .vmem, ⟨7, _⟩ => ⟨S8000x9, .f32⟩
  | .local _ .vmem, ⟨8, _⟩ => ⟨S8000x9, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_c_0 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_1 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x9 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x9 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x9 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S9x148_S9x64_0_0 : S9x148.Slices ![0, 0] S9x64
  slices_S9x148_S9x64_0_64 : S9x148.Slices ![0, 64] S9x64
  slices_S9x148_S9x4_0_128 : S9x148.Slices ![0, 128] S9x4
  slices_S9x148_S9x4_0_132 : S9x148.Slices ![0, 132] S9x4
  slices_S9x148_S9x12_0_136 : S9x148.Slices ![0, 136] S9x12
  bcast_S4_S1x4_1 : S4.BroadcastsInDim S1x4 (![1] : Fin 1 → Fin S1x4.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S1x4_S100000x4_0_1 : S1x4.BroadcastsInDim S100000x4 (![0, 1] : Fin 2 → Fin S100000x4.rank)
  transposes_S9x64_S64x9_1_0 : S9x64.Transposes [1, 0] S64x9
  transposes_S9x4_S4x9_1_0 : S9x4.Transposes [1, 0] S4x9
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S9x12_S12x9_1_0 : S9x12.Transposes [1, 0] S12x9
  shapeCasts_S1600000_S1600000x1 : S1600000.ShapeCasts S1600000x1
  inb_S8000x9_S8000x9_0_0 : ∀ a, (![0, 0] : Fin 2 → Nat) a + S8000x9.size a ≤ S8000x9.size a
  h_S8000x9 : 0 < S8000x9.numel
  shapeCasts_S8000x9_S8000x9 : S8000x9.ShapeCasts S8000x9
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S8000x12_d1_w32 : S8000x12.Iotas .tc 32 [1]
  broadcasts_S8000x1_S8000x12 : S8000x1.Broadcasts S8000x12
  natLt_1_32 : 1 < 32
  inb_S12x9_S12x9_0_0 : ∀ a, (![0, 0] : Fin 2 → Nat) a + S12x9.size a ≤ S12x9.size a
  h_S12x9 : 0 < S12x9.numel
  shapeCasts_S12x9_S12x9 : S12x9.ShapeCasts S12x9
  shapeCasts_S1600000x9_S1600000x3x3 : S1600000x9.ShapeCasts S1600000x3x3
  dot_S100000x64_S64x9_S100000x9_1_0_0_1_n_n_wf : DotDims.WF S100000x64 S64x9 S100000x9 [1] [0] [0] [1] [] []
  dot_S100000x4_S4x9_S100000x9_1_0_0_1_n_n_wf : DotDims.WF S100000x4 S4x9 S100000x9 [1] [0] [0] [1] [] []
  gather_S100000x9_S1600000x1_S1600000x9_1_0_n_n_0_1_19_wf : GatherDims.WF S100000x9 S1600000x1 S1600000x9 [1] [0] [] [0] [] 1 ![1, 9]
  dot_S8000x12_S12x9_S8000x9_1_0_0_1_n_n_wf : DotDims.WF S8000x12 S12x9 S8000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x9.size a ≤ S1600000x9.size a
  hwx0_0 : ∀ i : grid0.Coords, EltTy.bits .bf16 = 32 ∨ (Rect.block (s := S1600000x9) S8000x9.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x9.size a ≤ S1600000x9.size a
  hwx0_1 : ∀ i : grid0.Coords, EltTy.bits .bf16 = 32 ∨ (Rect.block (s := S1600000x9) S8000x9.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1600000x1.size a
  hwx0_2 : ∀ i : grid0.Coords, EltTy.bits .i32 = 32 ∨ (Rect.block (s := S1600000x1) S8000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x9.size a ≤ S12x9.size a
  hwx0_3 : ∀ i : grid0.Coords, EltTy.bits .bf16 = 32 ∨ (Rect.block (s := S12x9) S12x9.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x9.size a ≤ S1600000x9.size a
  hwx0_4 : ∀ i : grid0.Coords, EltTy.bits .f32 = 32 ∨ (Rect.block (s := S1600000x9) S8000x9.size (cc0_transform_4 i) (hinb0_4 i)).WholeWords (EltTy.packing .f32)

variable [Facts₀]

def dot_S100000x64_S64x9_S100000x9_1_0_0_1_n_n : DotDims S100000x64 S64x9 S100000x9 where
  lhsContracting := [1]
  rhsContracting := [0]
  lhsNonContracting := [0]
  rhsNonContracting := [1]
  lhsBatch := []
  rhsBatch := []
  wf := dot_S100000x64_S64x9_S100000x9_1_0_0_1_n_n_wf
def dot_S100000x4_S4x9_S100000x9_1_0_0_1_n_n : DotDims S100000x4 S4x9 S100000x9 where
  lhsContracting := [1]
  rhsContracting := [0]
  lhsNonContracting := [0]
  rhsNonContracting := [1]
  lhsBatch := []
  rhsBatch := []
  wf := dot_S100000x4_S4x9_S100000x9_1_0_0_1_n_n_wf
def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def dot_S8000x12_S12x9_S8000x9_1_0_0_1_n_n : DotDims S8000x12 S12x9 S8000x9 where
  lhsContracting := [1]
  rhsContracting := [0]
  lhsNonContracting := [0]
  rhsNonContracting := [1]
  lhsBatch := []
  rhsBatch := []
  wf := dot_S8000x12_S12x9_S8000x9_1_0_0_1_n_n_wf

abbrev win0_0 : Pipeline.Window sig grid0 :=
  Pipeline.Window.ofSpec (Memref.whole main_v34) S8000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S8000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S12x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S8000x9.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S9x148 : Shape := ⟨2, ![9, 148]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x4 : Shape := ⟨2, ![1, 4]⟩
abbrev S100000x4 : Shape := ⟨2, ![100000, 4]⟩
abbrev S1600000x4 : Shape := ⟨2, ![1600000, 4]⟩
abbrev S1x12 : Shape := ⟨2, ![1, 12]⟩
abbrev S1600000x12 : Shape := ⟨2, ![1600000, 12]⟩
abbrev S1600000x148 : Shape := ⟨2, ![1600000, 148]⟩
abbrev S148x9 : Shape := ⟨2, ![148, 9]⟩
abbrev S1600000x9 : Shape := ⟨2, ![1600000, 9]⟩
abbrev S1600000x3x3 : Shape := ⟨3, ![1600000, 3, 3]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .i32⟩
  | .hbm, ⟨3, _⟩ => ⟨S100000, .i32⟩
  | .hbm, ⟨4, _⟩ => ⟨S9x148, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S100000x1, .i32⟩
  | .hbm, ⟨28, _⟩ => ⟨S1x4, .i32⟩
  | .hbm, ⟨29, _⟩ => ⟨S100000x4, .i32⟩
  | .hbm, ⟨30, _⟩ => ⟨S100000x4, .i32⟩
  | .hbm, ⟨31, _⟩ => ⟨S100000x4, .i1⟩
  | .hbm, ⟨32, _⟩ => ⟨S100000x4, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x4, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x4, .f32⟩
  | .hbm, ⟨51, _⟩ => ⟨S1600000x1, .i32⟩
  | .hbm, ⟨52, _⟩ => ⟨S1x12, .i32⟩
  | .hbm, ⟨53, _⟩ => ⟨S1600000x12, .i32⟩
  | .hbm, ⟨54, _⟩ => ⟨S1600000x12, .i32⟩
  | .hbm, ⟨55, _⟩ => ⟨S1600000x12, .i1⟩
  | .hbm, ⟨56, _⟩ => ⟨S1600000x12, .f32⟩
  | .hbm, ⟨57, _⟩ => ⟨S1600000x148, .f32⟩
  | .hbm, ⟨58, _⟩ => ⟨S148x9, .f32⟩
  | .hbm, ⟨59, _⟩ => ⟨S1600000x9, .f32⟩
  | .hbm, ⟨60, _⟩ => ⟨S1600000x9, .f32⟩
  | .hbm, ⟨61, _⟩ => ⟨S1600000x3x3, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S1x4_S100000x4_0_1 : S1x4.BroadcastsInDim S100000x4 (![0, 1] : Fin 2 → Fin S100000x4.rank)
  bcast_S1600000x1_S1600000x12_0_1 : S1600000x1.BroadcastsInDim S1600000x12 (![0, 1] : Fin 2 → Fin S1600000x12.rank)
  bcast_S1x12_S1600000x12_0_1 : S1x12.BroadcastsInDim S1600000x12 (![0, 1] : Fin 2 → Fin S1600000x12.rank)
  concatenates_S1600000x64_S1600000x64_S1600000x4_S1600000x4_S1600000x12_S1600000x148_d1 : Shape.Concatenates [S1600000x64, S1600000x64, S1600000x4, S1600000x4, S1600000x12] S1600000x148 1
  transposes_S9x148_S148x9_1_0 : S9x148.Transposes [1, 0] S148x9
  shapeCasts_S1600000x9_S1600000x3x3 : S1600000x9.ShapeCasts S1600000x3x3
  gather_S100000x64_S1600000x1_S1600000x64_1_0_n_n_0_1_164_wf : GatherDims.WF S100000x64 S1600000x1 S1600000x64 [1] [0] [] [0] [] 1 ![1, 64]
  gather_S100000x4_S1600000x1_S1600000x4_1_0_n_n_0_1_14_wf : GatherDims.WF S100000x4 S1600000x1 S1600000x4 [1] [0] [] [0] [] 1 ![1, 4]
  dot_S1600000x148_S148x9_S1600000x9_1_0_0_1_n_n_wf : DotDims.WF S1600000x148 S148x9 S1600000x9 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def dot_S1600000x148_S148x9_S1600000x9_1_0_0_1_n_n : DotDims S1600000x148 S148x9 S1600000x9 where
  lhsContracting := [1]
  rhsContracting := [0]
  lhsNonContracting := [0]
  rhsNonContracting := [1]
  lhsBatch := []
  rhsBatch := []
  wf := dot_S1600000x148_S148x9_S1600000x9_1_0_0_1_n_n_wf

class Facts : Prop extends Facts₀ where

variable [Facts]
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibColumn.lean ====
/-
  Layout operations read at an index given by coordinates: the KEEP-DIMS COLUMN forms, beside the library's
  leading-unit-axis forms (Lib/ValueLayout.lean). A sum taken with its axis kept leaves a trailing unit axis: a vector
  `[a]` is cast to the column `[a, 1]`, a matrix `[a, b]` to `[a, b, 1]`, and such a column or trailing-unit block is then
  broadcast along the unit axis (`[a, 1]` to `[a, b]`, `[a, b, 1]` to `[a, b, c]`); a `[1, b, c]` block is broadcast down a
  new leading extent (`[1, b, c]` to `[a, b, c]`). Each lemma reads one such operation at an index written `ixN …`
  (Lib/ValueIdx.lean) as the operand at the index with the unit coordinate dropped or set to `0`; each is the parent
  lemma of Lib/Pipeline/Value.lean (`shapeCast_apply`, `broadcastTo_apply`) with the coordinates' arithmetic done.
-/
import Idealize.ShloMosaic.Lib.ValueLayout

namespace Cert.LibColumn

open Idealize.ShloMosaic Idealize.ShloMosaic.ValueIdx

variable {α : Type}

/-! ## A trailing unit axis added by a shape cast -/

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` array cast to `[a, b, 1]` reads, at `(i, j, u)`, the operand at `(i, j)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast -/

/-- A column `[a, 1]` broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, 1]` block broadcast to `[a, b, c]` reads, at `(i, j, e)`, the block at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` block broadcast to `[a, b, c]` reads, at `(p, i, j)`, the block at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibColumn
-- ==== Proof.LibRowScatter.lean ====
/-
  Two host operations on whole rows of a two-dimensional table, read at one entry.

  (1) Gathering rows. For a table of N rows and C columns and a list of E row numbers, the gathered array has E rows
      and C columns; its entry (e, q) is the table's entry (row named by e, q), where the row number is read as a
      signed integer and clamped into [0, N - 1].

  (2) Accumulating rows. For a base array of N rows and C columns, a list of E row numbers and E update rows of C
      columns, the accumulated array's entry (r, q) is the base entry plus the sum, over the positions e whose row
      number (read as a signed integer) is exactly r, of the update entry (e, q). A row number outside [0, N - 1]
      names no row and contributes nothing.
-/
import Idealize.ShloMosaic.PureOps.Ideal
import Idealize.ShloMosaic.Lib.ValueIdx

noncomputable section

open scoped BigOperators

namespace Cert.LibRowScatter
open Idealize.ShloMosaic Idealize.ShloMosaic.ValueIdx

/-- dimension numbers of x[rows]: offset_dims [1], collapsed_slice_dims [0], start_index_map [0], index_vector_dim 1, slice_sizes [1, C] -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- dimension numbers of the row scatter: update_window_dims [1], inserted_window_dims [0], scatter_dims_to_operand_dims [0], index_vector_dim 1 -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The table row that edge e's start index names: read as a signed integer and clamped into [0, N − 1]. -/
def rowAt {E w : Nat} (N : Nat) (hN : 0 < N) (idx : IVec ⟨2, ![E, 1]⟩ w) (e : Fin E) : Fin N :=
  ⟨min (idx (ix2 e (0 : Fin 1))).toInt.toNat (N - 1), by omega⟩

theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (rowAt N hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = _
    rw [GatherDims.batchCoord_eq_zero _ _ _ List.not_mem_nil]
    have hne : ∀ h : (1 : Fin 2) = 0, False := fun h => Nat.one_ne_zero (congrArg Fin.val h)
    have hnm : (1 : Fin 2) ∉ (rowGatherDims N E C wf).startIndexMap := fun h => hne (List.mem_singleton.mp h)
    have hk : (1 : Fin 2) ∈ (rowGatherDims N E C wf).sKept :=
      (GatherDims.mem_sKept _ _).mpr ⟨fun h => hne (List.mem_singleton.mp h), List.not_mem_nil⟩
    unfold GatherDims.start GatherDims.offCoord
    rw [dif_neg hnm, dif_pos hk]
    simp only [Nat.zero_add]
    rfl

/-! ## The accumulating scatter of rows -/

section Scatter
variable {N E C w : Nat} (wf : ScatterDims.WF ⟨2, ![N, C]⟩ ⟨2, ![E, 1]⟩ ⟨2, ![E, C]⟩ [1] [0] [0] 1)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- On the row axis the window of update (e, q') starts at e's row number, read as a signed integer. -/
theorem scatter_start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q')
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem scatter_start_col (idx : IVec ⟨2, ![E, 1]⟩ w) (e : Fin E) (q' : Fin C) :
    (rowScatterDims N E C wf).start (ix2 e q') idx 1 = 0 := by
  unfold ScatterDims.start
  rw [dif_neg (fun h => Nat.one_ne_zero (congrArg Fin.val (List.mem_singleton.mp h)))]

/-- The row axis is inserted: the window coordinate there is 0. -/
theorem scatter_window_row (e : Fin E) (q' : Fin C) : (rowScatterDims N E C wf).window (ix2 e q') 0 = 0 := by
  unfold ScatterDims.window
  rw [dif_neg (fun h => ((mem_kept _ _).mp h) (List.mem_singleton.mpr rfl))]

/-- On the column axis the window coordinate is the update's column. -/
theorem scatter_window_col (e : Fin E) (q' : Fin C) : (rowScatterDims N E C wf).window (ix2 e q') 1 = q'.val := by
  unfold ScatterDims.window
  rw [dif_pos ((mem_kept _ _).mpr (fun h => Nat.one_ne_zero (congrArg Fin.val (List.mem_singleton.mp h))))]
  rfl

/-- Update (e, q') lands at entry (r, q) exactly when e's row number is r and q' = q. -/
theorem resultIdx_eq_some_iff (idx : IVec ⟨2, ![E, 1]⟩ w) (e : Fin E) (q' : Fin C) (r : Fin N) (q : Fin C) :
    (rowScatterDims N E C wf).resultIdx? (ix2 e q') idx = some (ix2 r q)
      ↔ (idx (ix2 e (0 : Fin 1))).toInt = (r.val : ℤ) ∧ q' = q := by
  have hs0 := scatter_start_row wf idx e q'
  have hs1 := scatter_start_col wf idx e q'
  have hw0 := scatter_window_row wf e q'
  have hw1 := scatter_window_col wf e q'
  unfold ScatterDims.resultIdx?
  constructor
  · intro h
    split at h
    · rename_i hall
      have hf := Option.some.inj h
      have h0 : ((rowScatterDims N E C wf).start (ix2 e q') idx 0
          + ((rowScatterDims N E C wf).window (ix2 e q') 0 : ℤ)).toNat = r.val :=
        congrArg (fun f => (f 0).val) hf
      have h1 : ((rowScatterDims N E C wf).start (ix2 e q') idx 1
          + ((rowScatterDims N E C wf).window (ix2 e q') 1 : ℤ)).toNat = q.val :=
        congrArg (fun f => (f 1).val) hf
      have ha0 := (hall 0).1
      rw [hs0, hw0] at h0 ha0
      rw [hs1, hw1] at h1
      refine ⟨by omega, Fin.ext (by omega)⟩
    · exact absurd h (by simp)
  · rintro ⟨hI, rfl⟩
    have hall : ∀ a, 0 ≤ (rowScatterDims N E C wf).start (ix2 e q') idx a + ((rowScatterDims N E C wf).window (ix2 e q') a : ℤ)
        ∧ (rowScatterDims N E C wf).start (ix2 e q') idx a + ((rowScatterDims N E C wf).window (ix2 e q') a : ℤ)
          < (((⟨2, ![N, C]⟩ : Shape).size a : ℕ) : ℤ) := by
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < ((N : ℕ) : ℤ)
        rw [hs0, hw0, hI]
        have := r.isLt
        omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < ((C : ℕ) : ℤ)
        rw [hs1, hw1]
        have := q'.isLt
        omega
    rw [dif_pos hall]
    congr 1
    funext a
    refine Fin.ext ?_
    match a with
    | ⟨0, _⟩ =>
      show ((rowScatterDims N E C wf).start (ix2 e q') idx 0 + ((rowScatterDims N E C wf).window (ix2 e q') 0 : ℤ)).toNat = r.val
      rw [hs0, hw0, hI]
      omega
    | ⟨1, _⟩ =>
      show ((rowScatterDims N E C wf).start (ix2 e q') idx 1 + ((rowScatterDims N E C wf).window (ix2 e q') 1 : ℤ)).toNat = q'.val
      rw [hs1, hw1]
      omega

end Scatter

/-- THE ROW SCATTER READ AT (r, q): the base entry plus the sum, over the positions e whose row number is r, of the
    update entry (e, q). -/
theorem scatterAdd_rows_apply {N E C w : Nat}
    (wf : ScatterDims.WF ⟨2, ![N, C]⟩ ⟨2, ![E, 1]⟩ ⟨2, ![E, C]⟩ [1] [0] [0] 1)
    (x0 : (⟨2, ![N, C]⟩ : Shape).Idx → EReal) (idx : IVec ⟨2, ![E, 1]⟩ w)
    (upd : (⟨2, ![E, C]⟩ : Shape).Idx → EReal) (r : Fin N) (q : Fin C) :
    Ideal.hostScatterAdd (rowScatterDims N E C wf) x0 idx upd (ix2 r q)
      = x0 (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl (fun e _ => ?_)
  rw [Finset.sum_eq_single q]
  · by_cases h : (idx (ix2 e (0 : Fin 1))).toInt = (r.val : ℤ)
    · rw [if_pos h, if_pos ((resultIdx_eq_some_iff wf idx e q r q).mpr ⟨h, rfl⟩)]
    · rw [if_neg h, if_neg (fun hh => h ((resultIdx_eq_some_iff wf idx e q r q).mp hh).1)]
  · intro q' _ hne
    rw [if_neg (fun hh => hne ((resultIdx_eq_some_iff wf idx e q' r q).mp hh).2)]
  · intro h
    exact absurd (Finset.mem_univ q) h

end Cert.LibRowScatter
-- ==== Proof.EdgeFeature.lean ====
/-
  The per-edge map of a typed graph, before and after the linear layer is pushed through the node gather.

  Every edge e carries a 148-wide feature row: the 64 features of its source node, the 64 features of its
  destination node, the 4 type bits of the source, the 4 type bits of the destination and the 12 type bits of the
  edge itself (a type bit is 1 where the type word equals the position, else 0). The edge's 3 x 3 map is
  tanh (feature row . W(o, .)) for the nine output positions o.

  An inner product over the 148 columns is the sum of the inner products over the five column ranges
  [0,64), [64,128), [128,132), [132,136), [136,148); only commutativity and associativity of addition are used, so
  the law holds on the extended reals with no finiteness assumed. The two ranges that depend on the source node
  alone, and the two that depend on the destination node alone, are therefore functions of the NODE: they can be
  computed once per node and looked up per edge.
-/
import Idealize.ShloMosaic.PureOps.Ideal
import Idealize.ShloMosaic.Lib.ValueIdx
import proofs.«162660_j31842887533251_2_alg».proof.Proof.LibRowScatter

noncomputable section

open scoped BigOperators

namespace Cert.EdgeFeature

open Idealize.ShloMosaic Idealize.ShloMosaic.ValueIdx

/-! ## Type bits -/

/-- The type bit at position k of the type word v: 1 where v is k, else 0. -/
def bit (v : BitVec 32) (k : ℕ) : EReal := (((BitVec.ofBool (v == BitVec.ofNat 32 k)).toNat : ℝ) : EReal)

/-- The same bit widened to 32 bits and read as a signed integer. -/
theorem bit_signed (v : BitVec 32) (k : ℕ) :
    ((((BitVec.ofBool (v == BitVec.ofNat 32 k)).setWidth 32).toInt : ℝ) : EReal) = bit v k := by
  unfold bit
  cases (v == BitVec.ofNat 32 k)
  · have h1 : ((BitVec.ofBool false).setWidth 32).toInt = 0 := by decide
    have h2 : (BitVec.ofBool false).toNat = 0 := by decide
    rw [h1, h2]; simp
  · have h1 : ((BitVec.ofBool true).setWidth 32).toInt = 1 := by decide
    have h2 : (BitVec.ofBool true).toNat = 1 := by decide
    rw [h1, h2]; simp

/-! ## A sum over five consecutive ranges -/

/-- A sum over a + b + c + d + e consecutive positions is the sum of the sums over the five ranges. -/
theorem sum_five {M : Type} [AddCommMonoid M] (a b c d e : ℕ) (f : Fin (a + b + c + d + e) → M) :
    ∑ j, f j = ∑ i : Fin a, f ⟨i.val, by omega⟩ + ∑ i : Fin b, f ⟨a + i.val, by omega⟩
      + ∑ i : Fin c, f ⟨a + b + i.val, by omega⟩ + ∑ i : Fin d, f ⟨a + b + c + i.val, by omega⟩
      + ∑ i : Fin e, f ⟨a + b + c + d + i.val, by omega⟩ := by
  rw [Fin.sum_univ_add, Fin.sum_univ_add, Fin.sum_univ_add, Fin.sum_univ_add]
  rfl

/-! ## The node part, the edge part and the map -/

section
variable (x : (⟨2, ![100000, 64]⟩ : Shape).Idx → EReal) (nt : (⟨1, ![100000]⟩ : Shape).Idx → BitVec 32)
  (W : (⟨2, ![9, 148]⟩ : Shape).Idx → EReal) (et : (⟨1, ![1600000]⟩ : Shape).Idx → BitVec 32)

/-- What node n contributes to output o when its features meet columns [a, a + 64) of W and its type bits columns
    [b, b + 4). -/
def nodePart (a b : ℕ) (ha : a + 64 ≤ 148) (hb : b + 4 ≤ 148) (n : Fin 100000) (o : Fin 9) : EReal :=
  ∑ c : Fin 64, x (ix2 n c) * W (ix2 o ⟨a + c.val, by omega⟩)
    + ∑ t : Fin 4, bit (nt (ix1 n)) t.val * W (ix2 o ⟨b + t.val, by omega⟩)

/-- What edge e's own type contributes to output o: its type bits against columns [136, 148). -/
def edgePart (e : Fin 1600000) (o : Fin 9) : EReal :=
  ∑ k : Fin 12, bit (et (ix1 e)) k.val * W (ix2 o ⟨136 + k.val, by omega⟩)

/-- The edge map with the node parts looked up: for edge e with source row s(e) and destination row d(e) (each the
    start index read as a signed integer and clamped into the table),
    tanh ((node part of s(e) + node part of d(e)) + edge part). -/
def edgeMap (si di : (⟨2, ![1600000, 1]⟩ : Shape).Idx → BitVec 32) : (⟨2, ![1600000, 9]⟩ : Shape).Idx → EReal :=
  fun i => Ideal.tanh
    ((nodePart x nt W 0 128 (by omega) (by omega) (LibRowScatter.rowAt 100000 (by omega) si (i 0)) (i 1)
      + nodePart x nt W 64 132 (by omega) (by omega) (LibRowScatter.rowAt 100000 (by omega) di (i 0)) (i 1))
      + edgePart W et (i 0) (i 1))

/-- THE LAW. The five range sums of the concatenated feature row against W(o, .) — source features, destination
    features, source type bits, destination type bits, edge type bits, in the row's order — regroup into the two node
    parts and the edge part. -/
theorem five_ranges_regroup (s d : Fin 100000) (e : Fin 1600000) (o : Fin 9) :
    ∑ c : Fin 64, x (ix2 s c) * W (ix2 o ⟨c.val, by omega⟩)
      + ∑ c : Fin 64, x (ix2 d c) * W (ix2 o ⟨64 + c.val, by omega⟩)
      + ∑ t : Fin 4, bit (nt (ix1 s)) t.val * W (ix2 o ⟨64 + 64 + t.val, by omega⟩)
      + ∑ t : Fin 4, bit (nt (ix1 d)) t.val * W (ix2 o ⟨64 + 64 + 4 + t.val, by omega⟩)
      + ∑ k : Fin 12, bit (et (ix1 e)) k.val * W (ix2 o ⟨64 + 64 + 4 + 4 + k.val, by omega⟩)
    = (nodePart x nt W 0 128 (by omega) (by omega) s o + nodePart x nt W 64 132 (by omega) (by omega) d o)
      + edgePart W et e o := by
  unfold nodePart edgePart
  have e0 : ∀ c : Fin 64, (⟨0 + c.val, by omega⟩ : Fin 148) = ⟨c.val, by omega⟩ := fun c => Fin.ext (Nat.zero_add _)
  simp only [e0]
  abel

end

end Cert.EdgeFeature

end
-- ==== Proof.KernelBody.lean ====
/-
  One block of edges through the kernel body, read at an entry.

  The body takes a block of 8000 edges: the looked-up node parts of their sources and of their destinations (two
  [8000, 9] blocks), their edge-type words (an [8000, 1] column) and the [12, 9] table of W's edge-type columns. It
  forms the 12 type bits of each edge (type word against the positions 0..11), multiplies that [8000, 12] matrix of
  bits by the table, adds the two node parts, and applies tanh. At entry (p, q):
  tanh ((source part + destination part) + sum over k of bit_k(type word of edge p) * table(k, q)).
-/
import proofs.«162660_j31842887533251_2_alg».proof.Proof.Gen.KernelIdeal.Skeleton
import proofs.«162660_j31842887533251_2_alg».proof.Proof.LibDenseEntry
import proofs.«162660_j31842887533251_2_alg».proof.Proof.LibColumn
import proofs.«162660_j31842887533251_2_alg».proof.Proof.EdgeFeature
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- The matrix of type bits the body builds from the column of type words: entry (p, k) is the bit at position k of
    edge p's word. -/
theorem bits_entry (x2 : Vec Ideal S8000x1 .i32) (p : Fin 8000) (k : Fin 12) :
    truncf (F := Ideal) .bf16 (sitofp .f32 (extui 32 (cmpi .eq (broadcastTo S8000x12 x2 broadcasts_S8000x1_S8000x12)
      (iota .tc S8000x12 32 [1] iota_S8000x12_d1_w32)) natLt_1_32)) bitsLt_bf16_f32 (ix2 p k)
      = EdgeFeature.bit (x2 (ix2 p (0 : Fin 1))) k.val := by
  rw [← EdgeFeature.bit_signed]
  show ((((BitVec.ofBool (broadcastTo S8000x12 x2 broadcasts_S8000x1_S8000x12 (ix2 p k)
      == iota .tc S8000x12 32 [1] iota_S8000x12_d1_w32 (ix2 p k))).setWidth 32).toInt : ℝ) : EReal) = _
  rw [LibColumn.broadcastTo_a1_ab_apply x2 broadcasts_S8000x1_S8000x12 p k]
  have hi : iota .tc S8000x12 32 [1] iota_S8000x12_d1_w32 (ix2 p k) = BitVec.ofNat 32 k.val := by
    show BitVec.ofNat 32 (0 * 12 + k.val) = _
    rw [Nat.zero_mul, Nat.zero_add]
  rw [hi]

/-- THE BODY AT AN ENTRY. -/
theorem block_entry (x0 x1 : Vec Ideal S8000x9 .bf16) (x2 : Vec Ideal S8000x1 .i32) (x3 : Vec Ideal S12x9 .bf16)
    (p : Fin 8000) (q : Fin 9) :
    k0_pay1 (F := Ideal) x0 x1 x2 x3 (ix2 p q)
      = Ideal.tanh ((x0 (ix2 p q) + x1 (ix2 p q))
          + ∑ k : Fin 12, EdgeFeature.bit (x2 (ix2 p (0 : Fin 1))) k.val * x3 (ix2 k q)) := by
  unfold k0_pay1
  simp only [shapeCast_self]
  refine congrArg (fun z => Ideal.tanh (x0 (ix2 p q) + x1 (ix2 p q) + z)) ?_
  refine (LibDenseEntry.matmul_plain_zero_apply (φ₁ := .bf16) (φ₂ := .bf16) dot_S8000x12_S12x9_S8000x9_1_0_0_1_n_n rfl rfl rfl rfl rfl rfl none _ x3 p q).trans ?_
  exact Finset.sum_congr rfl fun k _ => congrArg (· * x3 (ix2 k q)) (bits_entry x2 p k)

end Cert.KernelIdeal.Body

end
-- ==== Proof.KernelArray.lean ====
/-
  From blocks of 8000 edges to the whole edge array.

  The kernel walks the 1,600,000 edges in 200 blocks of 8000 rows. At block t it reads rows [8000 t, 8000 t + 8000)
  of the two looked-up node-part arrays and of the column of edge-type words, the whole [12, 9] table, and writes
  rows [8000 t, 8000 t + 8000) of the output. Every output row lies in exactly the block t = row / 8000, and what a
  block writes at a row depends on that row of the inputs only; so the output array is one row-by-row function of the
  input arrays.
-/
import proofs.«162660_j31842887533251_2_alg».proof.Proof.Gen.KernelIdeal.Frame
import proofs.«162660_j31842887533251_2_alg».proof.Proof.KernelBody
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The whole output array as a function of the four input arrays: row e, column q is
    tanh ((zs(e, q) + zd(e, q)) + sum over k of bit_k(type word of edge e) * table(k, q)). -/
def allEdges (zs zd : Vec Ideal S1600000x9 .bf16) (et : Vec Ideal S1600000x1 .i32) (tb : Vec Ideal S12x9 .bf16) :
    Vec Ideal S1600000x9 .f32 :=
  fun i => Ideal.tanh ((zs i + zd i) + ∑ k : Fin 12, EdgeFeature.bit (et (ix2 (i 0) (0 : Fin 1))) k.val * tb (ix2 k (i 1)))

/-- The block index maps, decided over the 200 points: the row blocks move with the point, the table stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t is row 8000 t + p of the arrays. -/
theorem row_lt (t : Fin cfg0.N) (p : Fin 8000) : t.val * 8000 + p.val < 1600000 := by
  have ht : t.val < 200 := lt_of_lt_of_eq t.isLt (N_0 : cfg0.N = 200)
  have hp := p.isLt
  omega

abbrev rowOf (t : Fin cfg0.N) (p : Fin 8000) : Fin 1600000 := ⟨t.val * 8000 + p.val, row_lt t p⟩

/-! ## Each window's block at a point, read at an entry of the array -/

set_option maxHeartbeats 1000000 in
theorem zs_block_entry (c : Dev nD) (t : Fin cfg0.N) (p : Fin 8000) (q : Fin 9) :
    iblk m c 0 t (ix2 p q) = V m c main_v34 (ix2 (rowOf t p) q) := by
  obtain ⟨e00, e01, -⟩ := idx_facts t
  show V m c main_v34 (((cfg0.win 0).blk t).view.emb (ix2 p q)) = _
  refine congrArg (V m c main_v34) (funext fun a => Fin.ext ?_)
  match a with
  | ⟨0, _⟩ => show win0_0.index t (0 : Fin 2) * 8000 + 1 * p.val = t.val * 8000 + p.val; rw [e00]; omega
  | ⟨1, _⟩ => show win0_0.index t (1 : Fin 2) * 9 + 1 * q.val = q.val; rw [e01]; omega

set_option maxHeartbeats 1000000 in
theorem zd_block_entry (c : Dev nD) (t : Fin cfg0.N) (p : Fin 8000) (q : Fin 9) :
    iblk m c 1 t (ix2 p q) = V m c main_v41 (ix2 (rowOf t p) q) := by
  obtain ⟨-, -, e10, e11, -⟩ := idx_facts t
  show V m c main_v41 (((cfg0.win 1).blk t).view.emb (ix2 p q)) = _
  refine congrArg (V m c main_v41) (funext fun a => Fin.ext ?_)
  match a with
  | ⟨0, _⟩ => show win0_1.index t (0 : Fin 2) * 8000 + 1 * p.val = t.val * 8000 + p.val; rw [e10]; omega
  | ⟨1, _⟩ => show win0_1.index t (1 : Fin 2) * 9 + 1 * q.val = q.val; rw [e11]; omega

set_option maxHeartbeats 1000000 in
theorem et_block_entry (c : Dev nD) (t : Fin cfg0.N) (p : Fin 8000) :
    iblk m c 2 t (ix2 p (0 : Fin 1)) = V m c main_v44 (ix2 (rowOf t p) (0 : Fin 1)) := by
  obtain ⟨-, -, -, -, e20, e21, -⟩ := idx_facts t
  show V m c main_v44 (((cfg0.win 2).blk t).view.emb (ix2 p (0 : Fin 1))) = _
  refine congrArg (V m c main_v44) (funext fun a => Fin.ext ?_)
  match a with
  | ⟨0, _⟩ => show win0_2.index t (0 : Fin 2) * 8000 + 1 * p.val = t.val * 8000 + p.val; rw [e20]; omega
  | ⟨1, _⟩ => show win0_2.index t (1 : Fin 2) * 1 + 1 * 0 = 0; rw [e21]

set_option maxHeartbeats 1000000 in
theorem tab_block_entry (c : Dev nD) (t : Fin cfg0.N) (k : Fin 12) (q : Fin 9) :
    iblk m c 3 t (ix2 k q) = V m c main_v43 (ix2 k q) := by
  obtain ⟨-, -, -, -, -, -, e30, e31, -⟩ := idx_facts t
  show V m c main_v43 (((cfg0.win 3).blk t).view.emb (ix2 k q)) = _
  refine congrArg (V m c main_v43) (funext fun a => Fin.ext ?_)
  match a with
  | ⟨0, _⟩ => show win0_3.index t (0 : Fin 2) * 12 + 1 * k.val = k.val; rw [e30]; omega
  | ⟨1, _⟩ => show win0_3.index t (1 : Fin 2) * 9 + 1 * q.val = q.val; rw [e31]; omega

set_option maxHeartbeats 1000000 in
/-- Entry (p, q) of the output block at point t sits at (8000 t + p, q) of the output array. -/
theorem out_block_index (t : Fin cfg0.N) (p : Fin 8000) (q : Fin 9) :
    ((cfg0.win 4).blk t).view.emb (ix2 p q) = ix2 (rowOf t p) q := by
  obtain ⟨-, -, -, -, -, -, -, -, e40, e41⟩ := idx_facts t
  refine funext fun a => Fin.ext ?_
  match a with
  | ⟨0, _⟩ => show win0_4.index t (0 : Fin 2) * 8000 + 1 * p.val = t.val * 8000 + p.val; rw [e40]; omega
  | ⟨1, _⟩ => show win0_4.index t (1 : Fin 2) * 9 + 1 * q.val = q.val; rw [e41]; omega

/-! ## What a point writes back, the cover, the whole array -/

set_option maxHeartbeats 1000000 in
/-- WHAT POINT t WRITES BACK is block t of the whole-array function of the arrays as the region finds them. -/
theorem flushed_eq (c : Dev nD) (t : Fin cfg0.N) :
    (dats m 0 c).flushed 4 t = ((cfg0.win 4).blk t).view.read (Elt Ideal)
      (allEdges (V m c main_v34) (V m c main_v41) (V m c main_v44) (V m c main_v43)) := by
  show (cfg0.win 4).cut (grid0.coords t) ((dats m 0 c).after 4 t) = _
  rw [after0_4]
  unfold out0_4
  rw [View.canon_unit_zero origin]
  simp only [View.ld_unit_zero (S := S8000x9) origin, View.ld_unit_zero (S := S8000x1) origin, View.ld_unit_zero (S := S12x9) origin]
  refine funext fun (j : S8000x9.Idx) => ?_
  obtain ⟨p, q, rfl⟩ : ∃ (p : Fin 8000) (q : Fin 9), j = ix2 p q := ⟨j 0, j 1, eq_ix2 j⟩
  show k0_pay1 (iblk m c 0 t) (iblk m c 1 t) (iblk m c 2 t) (iblk m c 3 t) (ix2 p q)
    = allEdges (V m c main_v34) (V m c main_v41) (V m c main_v44) (V m c main_v43) (((cfg0.win 4).blk t).view.emb (ix2 p q))
  refine Eq.trans ?_ (congrArg (allEdges (V m c main_v34) (V m c main_v41) (V m c main_v44) (V m c main_v43)) (out_block_index t p q).symm)
  refine (Body.block_entry (iblk m c 0 t) (iblk m c 1 t) (iblk m c 2 t) (iblk m c 3 t) p q).trans ?_
  rw [zs_block_entry m c t p q, zd_block_entry m c t p q, et_block_entry m c t p]
  simp only [tab_block_entry m c t]
  rfl

/-- An index of the output array is in point t's block iff each coordinate is in the block's range on its axis. -/
theorem mem_blk (t : Fin cfg0.N) (i : S1600000x9.Idx) :
    i ∈ ((cfg0.win 4).blk t).view.set ↔ ∀ a : Fin 2, win0_4.index t a * S8000x9.size a ≤ (i a).val
      ∧ (i a).val < win0_4.index t a * S8000x9.size a + S8000x9.size a := by
  show i ∈ ((View.whole main_v45).slice (win0_4.rect t)).set ↔ _
  rw [View.set_slice_whole, Rect.mem_set_unit]
  exact Iff.rfl

/-- Every output entry is written: row r by the point r / 8000. -/
theorem covered (i : S1600000x9.Idx) :
    ∃ t : Fin cfg0.N, (cfg0.win 4).flush t = true ∧ i ∈ ((cfg0.win 4).blk t).view.set := by
  have hi0 : (i 0).val < 1600000 := (i 0).isLt
  have hi1 : (i 1).val < 9 := (i 1).isLt
  obtain ⟨t, ht⟩ : ∃ t : Fin cfg0.N, t.val = (i 0).val / 8000 :=
    ⟨⟨(i 0).val / 8000, lt_of_lt_of_eq (show (i 0).val / 8000 < 200 by omega) (N_0 : cfg0.N = 200).symm⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 8000 ≤ (i 0).val ∧ (i 0).val < win0_4.index t (0 : Fin 2) * 8000 + 8000
    rw [e40, ht]; omega
  | ⟨1, _⟩ =>
    show win0_4.index t (1 : Fin 2) * 9 ≤ (i 1).val ∧ (i 1).val < win0_4.index t (1 : Fin 2) * 9 + 9
    rw [e41]; omega

/-- THE OUTPUT ARRAY after the region: the whole-array function of the four input arrays. -/
theorem final (c : Dev nD) : (dats m 0 c).arrAt 4 cfg0.N
    = allEdges (V m c main_v34) (V m c main_v41) (V m c main_v44) (V m c main_v43) :=
  (dats m 0 c).arrAt_eq_of_cover 4 _ (fun t _ => flushed_eq m c t) covered

end Cert.KernelIdeal.Blocks

end
-- ==== Proof.LibSpreadColumn.lean ====
/-
  A vector spread as a column, read at an index (over any element type).

  A length-N vector v becomes an [N, 1] column by a broadcast along a new trailing axis, and a column is spread
  over C lanes by a second broadcast; entry (p, q) of the result is v(p) either way round: the column at (p, ·) is
  v(p), and the spread column at (p, q) is the column at (p, 0). This is how a per-row statistic (a row's maximum,
  a row's sum) is put back beside the row's entries.
-/
import Idealize.ShloMosaic.Lib.ValueIdx
import Idealize.ShloMosaic.Lib.Pipeline.Value

noncomputable section

namespace Cert.LibSpreadColumn

open Idealize.ShloMosaic Idealize.ShloMosaic.ValueIdx

variable {N C : ℕ} {α : Type}

/-- A vector made a column by a broadcast along a new trailing axis: entry (p, u) is v(p). -/
theorem vec_col_apply (v : (⟨1, ![N]⟩ : Shape).Idx → α)
    (h : (⟨1, ![N]⟩ : Shape).BroadcastsInDim ⟨2, ![N, 1]⟩ ![0]) (p : Fin N) (u : Fin 1) :
    broadcastInDim ⟨2, ![N, 1]⟩ ![0] h v (ix2 p u) = v (ix1 p) := by
  refine broadcastInDim_apply ![0] h v (ix2 p u) (ix1 p) fun a => ?_
  match a with
  | ⟨0, _⟩ =>
    show p.val = if N = 1 then 0 else p.val
    split
    · have := p.isLt; omega
    · rfl

/-- A column spread over C lanes: entry (p, q) is the column at (p, 0). -/
theorem col_spread_apply (c : (⟨2, ![N, 1]⟩ : Shape).Idx → α)
    (h : (⟨2, ![N, 1]⟩ : Shape).BroadcastsInDim ⟨2, ![N, C]⟩ ![0, 1]) (p : Fin N) (q : Fin C) :
    broadcastInDim ⟨2, ![N, C]⟩ ![0, 1] h c (ix2 p q) = c (ix2 p (0 : Fin 1)) := by
  refine broadcastInDim_apply ![0, 1] h c (ix2 p q) (ix2 p (0 : Fin 1)) fun a => ?_
  match a with
  | ⟨0, _⟩ =>
    show p.val = if N = 1 then 0 else p.val
    split
    · have := p.isLt; omega
    · rfl
  | ⟨1, _⟩ => show (0 : ℕ) = if (1 : ℕ) = 1 then 0 else q.val; rfl

/-- A vector made a column and spread over C lanes: entry (p, q) is v(p). -/
theorem spread_col_apply (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 v) (ix2 p q) = v (ix1 p) :=
  (col_spread_apply _ h2 p q).trans (vec_col_apply v h1 p 0)

end Cert.LibSpreadColumn

end
-- ==== Proof.LibSpreadRow.lean ====
/-
  Row vectors and scalar constants spread over an array, read at an index (over any element type; the last two over
  the extended reals).

  A length-C vector b becomes a [1, C] row either by a reshape or by a broadcast along a new leading axis; spread over
  N rows, entry (p, q) of the result is b(q) either way.  A scalar constant spread over any shape reads the constant
  everywhere.  The host's reciprocal square root of an array is taken entry by entry.
-/
import Idealize.ShloMosaic.Lib.ValueIdx
import Idealize.ShloMosaic.Lib.Pipeline.Value
import Idealize.ShloMosaic.PureOps.Ideal.Laws

noncomputable section

namespace Cert.LibSpreadRow

open Idealize.ShloMosaic Idealize.ShloMosaic.ValueIdx

variable {N C : ℕ}

/-- A vector made a row by a broadcast along a new leading axis and then spread over N rows: entry (p, q) is b(q). -/
theorem spread_row_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 b) (ix2 p q) = b (ix1 q) := by
  have e2 : broadcastInDim ⟨2, ![N, C]⟩ ![0, 1] h2 (broadcastInDim ⟨2, ![1, C]⟩ ![1] h1 b) (ix2 p q)
      = broadcastInDim ⟨2, ![1, C]⟩ ![1] h1 b (ix2 0 q) := by
    refine broadcastInDim_apply ![0, 1] h2 _ (ix2 p q) (ix2 0 q) fun a => ?_
    match a with
    | ⟨0, _⟩ => show (0 : ℕ) = if (1 : ℕ) = 1 then 0 else p.val; rfl
    | ⟨1, _⟩ =>
      show q.val = if C = 1 then 0 else q.val
      split
      · have := q.isLt; omega
      · rfl
  have e1 : broadcastInDim ⟨2, ![1, C]⟩ ![1] h1 b (ix2 0 q) = b (ix1 q) := by
    refine broadcastInDim_apply ![1] h1 b (ix2 0 q) (ix1 q) fun a => ?_
    match a with
    | ⟨0, _⟩ =>
      show q.val = if C = 1 then 0 else q.val
      split
      · have := q.isLt; omega
      · rfl
  rw [e2, e1]

/-- A vector reshaped to a [1, C] row, read at (0, q), is b(q). -/
theorem reshape_row_apply {α : Type} (b : (⟨1, ![C]⟩ : Shape).Idx → α)
    (h : (⟨1, ![C]⟩ : Shape).ShapeCasts ⟨2, ![1, C]⟩) (q : Fin C) :
    shapeCast ⟨2, ![1, C]⟩ b h (ix2 0 q) = b (ix1 q) := by
  refine shapeCast_apply b h (ix2 0 q) (ix1 q) ?_
  rw [Shape.rowMajor_val_one, Shape.rowMajor_val_two]
  show q.val = (0 : Fin 1).val * C + q.val
  simp

/-- A scalar constant spread over any shape reads the constant's value everywhere. -/
theorem spread_const_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w :=
  (broadcastInDim_apply (s := ⟨0, ![]⟩) ![] h (constant (F := Ideal) ⟨0, ![]⟩ φ w) j (fun a => a.elim0) (fun a => a.elim0)).trans rfl

/-- The host's reciprocal square root of an array, read at an index. -/
theorem host_rsqrt_apply {s : Shape} {φ : FTy} (v : FVec Ideal s φ) (i : s.Idx) : Host.rsqrt v i = Ideal.rsqrt (v i) := rfl

end Cert.LibSpreadRow

end
-- ==== Proof.NodeTables.lean ====
/-
  What the host computes before the kernel is launched: the per-node tables and the index columns.

  For every node n and output o the host forms two node parts — zs(n, o): the node's 64 features against columns
  [0, 64) of W plus its 4 type bits against columns [128, 132); zd(n, o): the same against columns [64, 128) and
  [132, 136) — as two products with transposed column slices of W, added. It then looks the tables up per edge: row
  e of the first lookup is row s(e) of zs, row e of the second is row d(e) of zd, where s(e), d(e) are the two rows
  of the edge index made non-negative (a negative word has the table height added) and laid out as columns. The
  edge-type words are laid out as a column, and columns [136, 148) of W, transposed, are the [12, 9] table.
-/
import proofs.«162660_j31842887533251_2_alg».proof.Proof.Gen.KernelIdeal.Frame
import proofs.«162660_j31842887533251_2_alg».proof.Proof.LibDenseEntry
import proofs.«162660_j31842887533251_2_alg».proof.Proof.LibSpreadColumn
import proofs.«162660_j31842887533251_2_alg».proof.Proof.LibSpreadRow
import proofs.«162660_j31842887533251_2_alg».proof.Proof.EdgeFeature
import Idealize.ShloMosaic.Lib.Pipeline.Value
import Idealize.ShloMosaic.Lib.StableHlo.Run

set_option maxRecDepth 16384

noncomputable section

open scoped BigOperators

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo

/-! ## A transposed column slice of W at an entry -/

/-- Columns [off, off + K) of W, transposed to [K, 9]: entry (k, o) is W(o, off + k). -/
theorem wcol_entry {α : Type} {K : ℕ} (off : ℕ) (hoff : off + K ≤ 148) (a4 : (⟨2, ![9, 148]⟩ : Shape).Idx → α)
    (hs : (⟨2, ![9, 148]⟩ : Shape).Slices ![0, off] ⟨2, ![9, K]⟩)
    (ht : (⟨2, ![9, K]⟩ : Shape).Transposes [1, 0] ⟨2, ![K, 9]⟩) (k : Fin K) (o : Fin 9) :
    transpose ⟨2, ![K, 9]⟩ [1, 0] (extractStridedSlice ⟨2, ![9, K]⟩ ![0, off] a4 hs) ht (ix2 k o)
      = a4 (ix2 o ⟨off + k.val, by omega⟩) := by
  rw [transpose_apply [1, 0] _ ht (ix2 k o) (ix2 o k) (fun b => match b with | ⟨0, _⟩ => rfl | ⟨1, _⟩ => rfl)]
  exact extractStridedSlice_apply ![0, off] a4 hs (ix2 o k) (ix2 o ⟨off + k.val, by omega⟩) (fun a => match a with
    | ⟨0, _⟩ => by show o.val = 0 + o.val; omega
    | ⟨1, _⟩ => rfl)

/-! ## The node type bits -/

/-- The [100000, 4] matrix of node type bits: the type words as a column spread over 4 lanes, compared with the
    positions 0..3 spread over the rows. -/
def typeBits (a3 : IVec S100000 32) : FVec Ideal S100000x4 .f32 :=
  uitofp .f32 (cmpi .eq
    (broadcastInDim S100000x4 ![0, 1] bcast_S100000x1_S100000x4_0_1 (broadcastInDim S100000x1 ![0] bcast_S100000_S100000x1_0 a3))
    (broadcastInDim S100000x4 ![0, 1] bcast_S1x4_S100000x4_0_1 (broadcastInDim S1x4 ![1] bcast_S4_S1x4_1 (iotaInDim S4 32 0))))

theorem typeBits_entry (a3 : IVec S100000 32) (n : Fin 100000) (t : Fin 4) :
    typeBits a3 (ix2 n t) = EdgeFeature.bit (a3 (ix1 n)) t.val := by
  show ((((BitVec.ofBool
      (broadcastInDim S100000x4 ![0, 1] bcast_S100000x1_S100000x4_0_1 (broadcastInDim S100000x1 ![0] bcast_S100000_S100000x1_0 a3) (ix2 n t)
        == broadcastInDim S100000x4 ![0, 1] bcast_S1x4_S100000x4_0_1 (broadcastInDim S1x4 ![1] bcast_S4_S1x4_1 (iotaInDim S4 32 0)) (ix2 n t))).toNat : ℝ)) : EReal) = _
  rw [LibSpreadColumn.spread_col_apply a3 bcast_S100000_S100000x1_0 bcast_S100000x1_S100000x4_0_1 n t,
    LibSpreadRow.spread_row_apply (iotaInDim S4 32 0) bcast_S4_S1x4_1 bcast_S1x4_S100000x4_0_1 n t]
  rfl

/-! ## The two node tables -/

/-- zs: features against columns [0, 64) plus type bits against columns [128, 132). -/
def zsTab (a0 : FVec Ideal S100000x64 .f32) (a3 : IVec S100000 32) (a4 : FVec Ideal S9x148 .f32) : FVec Ideal S100000x9 .bf16 :=
  truncf .bf16 (addf
    (Host.dotGeneral dot_S100000x64_S64x9_S100000x9_1_0_0_1_n_n none a0
      (transpose S64x9 [1, 0] (extractStridedSlice S9x64 ![0, 0] a4 slices_S9x148_S9x64_0_0) transposes_S9x64_S64x9_1_0))
    (Host.dotGeneral dot_S100000x4_S4x9_S100000x9_1_0_0_1_n_n none (typeBits a3)
      (transpose S4x9 [1, 0] (extractStridedSlice S9x4 ![0, 128] a4 slices_S9x148_S9x4_0_128) transposes_S9x4_S4x9_1_0)))
    bitsLt_bf16_f32

/-- zd: features against columns [64, 128) plus type bits against columns [132, 136). -/
def zdTab (a0 : FVec Ideal S100000x64 .f32) (a3 : IVec S100000 32) (a4 : FVec Ideal S9x148 .f32) : FVec Ideal S100000x9 .bf16 :=
  truncf .bf16 (addf
    (Host.dotGeneral dot_S100000x64_S64x9_S100000x9_1_0_0_1_n_n none a0
      (transpose S64x9 [1, 0] (extractStridedSlice S9x64 ![0, 64] a4 slices_S9x148_S9x64_0_64) transposes_S9x64_S64x9_1_0))
    (Host.dotGeneral dot_S100000x4_S4x9_S100000x9_1_0_0_1_n_n none (typeBits a3)
      (transpose S4x9 [1, 0] (extractStridedSlice S9x4 ![0, 132] a4 slices_S9x148_S9x4_0_132) transposes_S9x4_S4x9_1_0)))
    bitsLt_bf16_f32

theorem zsTab_entry (a0 : FVec Ideal S100000x64 .f32) (a3 : IVec S100000 32) (a4 : FVec Ideal S9x148 .f32)
    (n : Fin 100000) (o : Fin 9) :
    zsTab a0 a3 a4 (ix2 n o) = EdgeFeature.nodePart a0 a3 a4 0 128 (by omega) (by omega) n o := by
  show FloatOps.dotGeneral dot_S100000x64_S64x9_S100000x9_1_0_0_1_n_n none default a0 _ (ix2 n o)
      + FloatOps.dotGeneral dot_S100000x4_S4x9_S100000x9_1_0_0_1_n_n none default (typeBits a3) _ (ix2 n o) = _
  rw [LibDenseEntry.dotGeneral_plain_apply (φ₁ := .f32) (φ₂ := .f32) dot_S100000x64_S64x9_S100000x9_1_0_0_1_n_n rfl rfl rfl rfl rfl rfl,
    LibDenseEntry.dotGeneral_plain_apply (φ₁ := .f32) (φ₂ := .f32) dot_S100000x4_S4x9_S100000x9_1_0_0_1_n_n rfl rfl rfl rfl rfl rfl]
  unfold EdgeFeature.nodePart
  refine congrArg₂ (· + ·) (Finset.sum_congr rfl fun c _ => ?_) (Finset.sum_congr rfl fun t _ => ?_)
  · exact congrArg (a0 (ix2 n c) * ·) (wcol_entry 0 (by omega) a4 slices_S9x148_S9x64_0_0 transposes_S9x64_S64x9_1_0 c o)
  · exact congrArg₂ (· * ·) (typeBits_entry a3 n t) (wcol_entry 128 (by omega) a4 slices_S9x148_S9x4_0_128 transposes_S9x4_S4x9_1_0 t o)

theorem zdTab_entry (a0 : FVec Ideal S100000x64 .f32) (a3 : IVec S100000 32) (a4 : FVec Ideal S9x148 .f32)
    (n : Fin 100000) (o : Fin 9) :
    zdTab a0 a3 a4 (ix2 n o) = EdgeFeature.nodePart a0 a3 a4 64 132 (by omega) (by omega) n o := by
  show FloatOps.dotGeneral dot_S100000x64_S64x9_S100000x9_1_0_0_1_n_n none default a0 _ (ix2 n o)
      + FloatOps.dotGeneral dot_S100000x4_S4x9_S100000x9_1_0_0_1_n_n none default (typeBits a3) _ (ix2 n o) = _
  rw [LibDenseEntry.dotGeneral_plain_apply (φ₁ := .f32) (φ₂ := .f32) dot_S100000x64_S64x9_S100000x9_1_0_0_1_n_n rfl rfl rfl rfl rfl rfl,
    LibDenseEntry.dotGeneral_plain_apply (φ₁ := .f32) (φ₂ := .f32) dot_S100000x4_S4x9_S100000x9_1_0_0_1_n_n rfl rfl rfl rfl rfl rfl]
  unfold EdgeFeature.nodePart
  refine congrArg₂ (· + ·) (Finset.sum_congr rfl fun c _ => ?_) (Finset.sum_congr rfl fun t _ => ?_)
  · exact congrArg (a0 (ix2 n c) * ·) (wcol_entry 64 (by omega) a4 slices_S9x148_S9x64_0_64 transposes_S9x64_S64x9_1_0 c o)
  · exact congrArg₂ (· * ·) (typeBits_entry a3 n t) (wcol_entry 132 (by omega) a4 slices_S9x148_S9x4_0_132 transposes_S9x4_S4x9_1_0 t o)

/-! ## The index columns -/

/-- Row r of the edge index as a vector. -/
def endRow0 (a1 : IVec S2x1600000 32) : IVec S1600000 32 :=
  shapeCast _ (extractStridedSlice S1x1600000 ![0, 0] a1 slices_S2x1600000_S1x1600000_0_0) shapeCasts_S1x1600000_S1600000
def endRow1 (a1 : IVec S2x1600000 32) : IVec S1600000 32 :=
  shapeCast _ (extractStridedSlice S1x1600000 ![1, 0] a1 slices_S2x1600000_S1x1600000_1_0) shapeCasts_S1x1600000_S1600000

/-- A vector of row words made non-negative (a negative word has 100000 added) and laid out as a column. -/
def asColumn (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-! ## The four arrays the kernel's windows read, as the region finds them -/

variable (m : (ℓ : Loc nD τ sig) → Buf (Elt Ideal) ℓ)

set_option maxHeartbeats 2000000 in
theorem V_zs (c : Dev nD) : (V m c main_v34 : S1600000x9.Idx → EReal)
    = Host.gather gather_S100000x9_S1600000x1_S1600000x9_1_0_n_n_0_1_19
        (zsTab (m ((c : Thread nD τ).loc main_arg0)) (m ((c : Thread nD τ).loc main_arg3)) (m ((c : Thread nD τ).loc main_arg4)))
        (asColumn (endRow0 (m ((c : Thread nD τ).loc main_arg1)))) := by
  show StableHlo.after hostOps0 (fun b => m (c, b)) (Proc.devRef .tc main_v34) = _
  after_results_simp
  all_goals rfl

set_option maxHeartbeats 2000000 in
theorem V_zd (c : Dev nD) : (V m c main_v41 : S1600000x9.Idx → EReal)
    = Host.gather gather_S100000x9_S1600000x1_S1600000x9_1_0_n_n_0_1_19
        (zdTab (m ((c : Thread nD τ).loc main_arg0)) (m ((c : Thread nD τ).loc main_arg3)) (m ((c : Thread nD τ).loc main_arg4)))
        (asColumn (endRow1 (m ((c : Thread nD τ).loc main_arg1)))) := by
  show StableHlo.after hostOps0 (fun b => m (c, b)) (Proc.devRef .tc main_v41) = _
  after_results_simp
  all_goals rfl

set_option maxHeartbeats 2000000 in
theorem V_et (c : Dev nD) : (V m c main_v44 : S1600000x1.Idx → BitVec 32)
    = shapeCast _ (m ((c : Thread nD τ).loc main_arg2)) shapeCasts_S1600000_S1600000x1 := by
  show StableHlo.after hostOps0 (fun b => m (c, b)) (Proc.devRef .tc main_v44) = _
  after_results_simp
  all_goals rfl

set_option maxHeartbeats 2000000 in
theorem V_tab (c : Dev nD) : (V m c main_v43 : S12x9.Idx → EReal)
    = truncf (F := Ideal) .bf16 (transpose S12x9 [1, 0] (extractStridedSlice S9x12 ![0, 136] (m ((c : Thread nD τ).loc main_arg4)) slices_S9x148_S9x12_0_136) transposes_S9x12_S12x9_1_0) bitsLt_bf16_f32 := by
  show StableHlo.after hostOps0 (fun b => m (c, b)) (Proc.devRef .tc main_v43) = _
  after_results_simp
  all_goals rfl

end Cert.KernelIdeal.Host

end
-- ==== Proof.KernelValue.lean ====
/-
  The kernel program's result: the edge map of the argument arrays, reshaped.

  The output array of the launch is the row-by-row function of the four arrays the windows read; those arrays are
  the two table lookups, the column of edge-type words and the [12, 9] table, all computed from the arguments before
  the launch. Substituting, row e of the output is tanh ((zs(s(e), .) + zd(d(e), .)) + edge part) — the edge map —
  and the program returns it reshaped to [1600000, 3, 3].
-/
import proofs.«162660_j31842887533251_2_alg».proof.Proof.KernelArray
import proofs.«162660_j31842887533251_2_alg».proof.Proof.NodeTables
import proofs.«162660_j31842887533251_2_alg».proof.Proof.LibRowScatter
import proofs.«162660_j31842887533251_2_alg».proof.Proof.LibColumn
import Idealize.ShloMosaic.Lib.StableHlo.Run

set_option maxRecDepth 16384

noncomputable section

open scoped BigOperators

namespace Cert.KernelIdeal.Value

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The row-by-row function at an entry. -/
theorem allEdges_entry (zs zd : Vec Ideal S1600000x9 .bf16) (et : Vec Ideal S1600000x1 .i32) (tb : Vec Ideal S12x9 .bf16)
    (e : Fin 1600000) (q : Fin 9) :
    Blocks.allEdges zs zd et tb (ix2 e q)
      = Ideal.tanh ((zs (ix2 e q) + zd (ix2 e q)) + ∑ k : Fin 12, EdgeFeature.bit (et (ix2 e (0 : Fin 1))) k.val * tb (ix2 k q)) := rfl

/-- The edge map at an entry. -/
theorem edgeMap_entry (x : (⟨2, ![100000, 64]⟩ : Shape).Idx → EReal) (nt : (⟨1, ![100000]⟩ : Shape).Idx → BitVec 32)
    (W : (⟨2, ![9, 148]⟩ : Shape).Idx → EReal) (et : (⟨1, ![1600000]⟩ : Shape).Idx → BitVec 32)
    (si di : (⟨2, ![1600000, 1]⟩ : Shape).Idx → BitVec 32) (e : Fin 1600000) (q : Fin 9) :
    EdgeFeature.edgeMap x nt W et si di (ix2 e q)
      = Ideal.tanh ((EdgeFeature.nodePart x nt W 0 128 (by omega) (by omega) (LibRowScatter.rowAt 100000 (by omega) si e) q
          + EdgeFeature.nodePart x nt W 64 132 (by omega) (by omega) (LibRowScatter.rowAt 100000 (by omega) di e) q)
          + EdgeFeature.edgePart W et e q) := rfl

/-- The edge map of the argument arrays on core c, before the final reshape. -/
def edgeArray (c : Dev nD) : Vec Ideal S1600000x9 .f32 :=
  EdgeFeature.edgeMap (m ((c : Thread nD τ).loc main_arg0)) (m ((c : Thread nD τ).loc main_arg3)) (m ((c : Thread nD τ).loc main_arg4)) (m ((c : Thread nD τ).loc main_arg2))
    (Host.asColumn (Host.endRow0 (m ((c : Thread nD τ).loc main_arg1)))) (Host.asColumn (Host.endRow1 (m ((c : Thread nD τ).loc main_arg1))))

/-- The arrays the windows read, put through the row-by-row function, are the edge map of the arguments. -/
theorem arrays_are_edgeMap (c : Dev nD) :
    Blocks.allEdges (V m c main_v34) (V m c main_v41) (V m c main_v44) (V m c main_v43) = edgeArray m c := by
  funext i
  obtain ⟨e, q, rfl⟩ : ∃ (e : Fin 1600000) (q : Fin 9), i = ix2 e q := ⟨i 0, i 1, eq_ix2 i⟩
  refine (allEdges_entry _ _ _ _ e q).trans ?_
  refine Eq.trans ?_ (edgeMap_entry _ _ _ _ _ _ e q).symm
  refine congrArg Ideal.tanh (congrArg₂ (· + ·) (congrArg₂ (· + ·) ?_ ?_) ?_)
  · refine (congrFun (Host.V_zs m c) (ix2 e q)).trans ?_
    refine (LibRowScatter.gather_rows_apply (by omega) gather_S100000x9_S1600000x1_S1600000x9_1_0_n_n_0_1_19_wf _ _ e q).trans ?_
    exact Host.zsTab_entry _ _ _ _ q
  · refine (congrFun (Host.V_zd m c) (ix2 e q)).trans ?_
    refine (LibRowScatter.gather_rows_apply (by omega) gather_S100000x9_S1600000x1_S1600000x9_1_0_n_n_0_1_19_wf _ _ e q).trans ?_
    exact Host.zdTab_entry _ _ _ _ q
  · unfold EdgeFeature.edgePart
    refine Finset.sum_congr rfl fun k _ => congrArg₂ (· * ·) (congrArg (EdgeFeature.bit · k.val) ?_) ?_
    · exact (congrFun (Host.V_et m c) (ix2 e (0 : Fin 1))).trans
        (LibColumn.shapeCast_a_a1_apply (m ((c : Thread nD τ).loc main_arg2)) shapeCasts_S1600000_S1600000x1 e 0)
    · exact (congrFun (Host.V_tab m c) (ix2 k q)).trans
        (Host.wcol_entry 136 (by omega) (m ((c : Thread nD τ).loc main_arg4)) slices_S9x148_S9x12_0_136 transposes_S9x12_S12x9_1_0 k q)

/-- The program's one host operation after the launch reshapes the launch's output array. -/
theorem tail_result (c : Dev nD) :
    Pipeline.afterTail₀ cfgs (dats m) 0 (V0 m) [hostOps1] c main_v46
      = shapeCast _ ((dats m 0 c).arrAt 4 cfg0.N) shapeCasts_S1600000x9_S1600000x3x3 := by
  unfold Pipeline.afterTail₀
  show StableHlo.after hostOps1 _ (Proc.devRef .tc main_v46) = _
  after_results
  refine funext fun i => ?_
  show shapeCast S1600000x3x3 (Pipeline.withArrays spec0 c (V0 m c) (fun w => (dats m 0 c).arrAt w cfg0.N)
      (Proc.devRef .tc (Pipeline.arrRef spec0 4))) shapeCasts_S1600000x9_S1600000x3x3 i = _
  rw [Pipeline.withArrays_arr spec0 launch0.win.arr_inj c (V0 m c) (fun w => (dats m 0 c).arrAt w cfg0.N) 4]

/-- The program's result on core c: the edge map of the arguments, reshaped to [1600000, 3, 3]. -/
def result (c : Dev nD) : Buf (Elt Ideal) ((c.tc : Thread nD τ).loc main_v46) :=
  shapeCast _ (edgeArray m c) shapeCasts_S1600000x9_S1600000x3x3

/-- THE KERNEL PROGRAM'S RUN: every weakly fair execution terminates with the result array at the reshaped edge map of
    the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v46 (Pipeline.mem_restRefs_of main_v46 (by decide) (by decide))).trans
        ((tail_result m c).trans (congrArg (fun X => shapeCast S1600000x3x3 X shapeCasts_S1600000x9_S1600000x3x3)
          ((Blocks.final m c).trans (arrays_are_edgeMap m c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.RefValue.lean ====
/-
  The reference at an entry: tanh of the 148-wide inner product, regrouped.

  The reference gathers the source and destination feature rows and type-bit rows per edge, forms the edge's own
  type bits, joins the five pieces side by side into a [1600000, 148] array and multiplies by W transposed. Entry
  (e, o) of the product is the sum over the 148 columns; read range by range (each range is one piece of the join)
  it is the five range sums of the edge-feature law, and hence the looked-up node parts plus the edge part.
-/
import proofs.«162660_j31842887533251_2_alg».proof.Proof.Gen.ReferenceIdeal.Read
import proofs.«162660_j31842887533251_2_alg».proof.Proof.LibRowScatter
import proofs.«162660_j31842887533251_2_alg».proof.Proof.LibSpreadColumn
import proofs.«162660_j31842887533251_2_alg».proof.Proof.EdgeFeature
import Idealize.ShloMosaic.Lib.Pipeline.Value
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

/-- A [1, C] row spread over N rows: entry (p, q) is the row at (0, q). -/
theorem row_spread_apply {α : Type} {N C : ℕ} (r : (⟨2, ![1, C]⟩ : Shape).Idx → α)
    (h : (⟨2, ![1, C]⟩ : Shape).BroadcastsInDim ⟨2, ![N, C]⟩ ![0, 1]) (p : Fin N) (q : Fin C) :
    broadcastInDim ⟨2, ![N, C]⟩ ![0, 1] h r (ix2 p q) = r (ix2 (0 : Fin 1) q) := by
  refine broadcastInDim_apply ![0, 1] h r (ix2 p q) (ix2 (0 : Fin 1) q) fun a => ?_
  match a with
  | ⟨0, _⟩ => show (0 : ℕ) = if (1 : ℕ) = 1 then 0 else p.val; rfl
  | ⟨1, _⟩ =>
    show q.val = if C = 1 then 0 else q.val
    split
    · have := q.isLt; omega
    · rfl

/-! ## The type bits -/

/-- The node type bits: entry (n, t) is the bit at position t of node n's type word. -/
theorem node_bits_entry (a3 : IVec S100000 32) (n : Fin 100000) (t : Fin 4) :
    val_main_v18 (F := Ideal) a3 (ix2 n t) = EdgeFeature.bit (a3 (ix1 n)) t.val := by
  show ((((BitVec.ofBool
      (broadcastInDim S100000x4 ![0, 1] bcast_S100000x1_S100000x4_0_1 (broadcastInDim S100000x1 ![0] bcast_S100000_S100000x1_0 a3) (ix2 n t)
        == broadcastInDim S100000x4 ![0, 1] bcast_S1x4_S100000x4_0_1 (iotaInDim S1x4 32 1) (ix2 n t))).toNat : ℝ)) : EReal) = _
  rw [LibSpreadColumn.spread_col_apply a3 bcast_S100000_S100000x1_0 bcast_S100000x1_S100000x4_0_1 n t,
    row_spread_apply (iotaInDim S1x4 32 1) bcast_S1x4_S100000x4_0_1 n t]
  rfl

/-- The edge type bits: entry (e, k) is the bit at position k of edge e's type word. -/
theorem edge_bits_entry (a2 : IVec S1600000 32) (e : Fin 1600000) (k : Fin 12) :
    val_main_v33 (F := Ideal) a2 (ix2 e k) = EdgeFeature.bit (a2 (ix1 e)) k.val := by
  show ((((BitVec.ofBool
      (broadcastInDim S1600000x12 ![0, 1] bcast_S1600000x1_S1600000x12_0_1 (broadcastInDim S1600000x1 ![0] bcast_S1600000_S1600000x1_0 a2) (ix2 e k)
        == broadcastInDim S1600000x12 ![0, 1] bcast_S1x12_S1600000x12_0_1 (iotaInDim S1x12 32 1) (ix2 e k))).toNat : ℝ)) : EReal) = _
  rw [LibSpreadColumn.spread_col_apply a2 bcast_S1600000_S1600000x1_0 bcast_S1600000x1_S1600000x12_0_1 e k,
    row_spread_apply (iotaInDim S1x12 32 1) bcast_S1x12_S1600000x12_0_1 e k]
  rfl

/-! ## The index columns -/

/-- The source column is computed twice by the reference (once per lookup); both are one term. -/
theorem src_col_again (a1 : IVec S2x1600000 32) : val_main_v24 (F := Ideal) a1 = val_main_v9 (F := Ideal) a1 := rfl
theorem dst_col_again (a1 : IVec S2x1600000 32) : val_main_v31 (F := Ideal) a1 = val_main_v16 (F := Ideal) a1 := rfl

/-! ## The joined feature row, range by range -/

section
variable (a0 : FVec Ideal S100000x64 .f32) (a1 : IVec S2x1600000 32) (a2 : IVec S1600000 32) (a3 : IVec S100000 32)

/-- The five pieces the reference joins side by side, in order. -/
abbrev pieces : List ((s : Shape) × (s.Idx → EReal)) :=
  [⟨S1600000x64, val_main_v10 (F := Ideal) a0 a1⟩, ⟨S1600000x64, val_main_v17 (F := Ideal) a0 a1⟩,
    ⟨S1600000x4, val_main_v25 (F := Ideal) a1 a3⟩, ⟨S1600000x4, val_main_v32 (F := Ideal) a1 a3⟩,
    ⟨S1600000x12, val_main_v33 (F := Ideal) a2⟩]

/-- source row of edge e -/
abbrev srcRow (e : Fin 1600000) : Fin 100000 := LibRowScatter.rowAt 100000 (by omega) (val_main_v9 (F := Ideal) a1) e
/-- destination row of edge e -/
abbrev dstRow (e : Fin 1600000) : Fin 100000 := LibRowScatter.rowAt 100000 (by omega) (val_main_v16 (F := Ideal) a1) e

theorem row_src_feat (e : Fin 1600000) (c : Fin 64) (h : c.val < 148) :
    val_main_v34 (F := Ideal) a0 a1 a2 a3 (ix2 e ⟨c.val, h⟩) = a0 (ix2 (srcRow a1 e) c) := by
  unfold val_main_v34
  refine (concatenate_apply_piece (α := EReal) (t := S1600000x148) (1 : Fin 2) (pieces a0 a1 a2 a3) concatenates_S1600000x64_S1600000x64_S1600000x4_S1600000x4_S1600000x12_S1600000x148_d1
    (ix2 e ⟨c.val, h⟩) 0 (show (0 : ℕ) < 5 by omega) S1600000x64 (val_main_v10 (F := Ideal) a0 a1) rfl rfl 0 rfl (ix2 e c)
    (fun b hb => match b with | ⟨0, _⟩ => rfl | ⟨1, _⟩ => absurd rfl hb) (Nat.zero_add _)).trans ?_
  exact LibRowScatter.gather_rows_apply (by omega) gather_S100000x64_S1600000x1_S1600000x64_1_0_n_n_0_1_164_wf a0 (val_main_v9 (F := Ideal) a1) e c

theorem row_dst_feat (e : Fin 1600000) (c : Fin 64) (h : 64 + c.val < 148) :
    val_main_v34 (F := Ideal) a0 a1 a2 a3 (ix2 e ⟨64 + c.val, h⟩) = a0 (ix2 (dstRow a1 e) c) := by
  unfold val_main_v34
  refine (concatenate_apply_piece (α := EReal) (t := S1600000x148) (1 : Fin 2) (pieces a0 a1 a2 a3) concatenates_S1600000x64_S1600000x64_S1600000x4_S1600000x4_S1600000x12_S1600000x148_d1
    (ix2 e ⟨64 + c.val, h⟩) 1 (show (1 : ℕ) < 5 by omega) S1600000x64 (val_main_v17 (F := Ideal) a0 a1) rfl rfl 64 rfl (ix2 e c)
    (fun b hb => match b with | ⟨0, _⟩ => rfl | ⟨1, _⟩ => absurd rfl hb) rfl).trans ?_
  exact LibRowScatter.gather_rows_apply (by omega) gather_S100000x64_S1600000x1_S1600000x64_1_0_n_n_0_1_164_wf a0 (val_main_v16 (F := Ideal) a1) e c

theorem row_src_bits (e : Fin 1600000) (t : Fin 4) (h : 64 + 64 + t.val < 148) :
    val_main_v34 (F := Ideal) a0 a1 a2 a3 (ix2 e ⟨64 + 64 + t.val, h⟩) = EdgeFeature.bit (a3 (ix1 (srcRow a1 e))) t.val := by
  unfold val_main_v34
  refine (concatenate_apply_piece (α := EReal) (t := S1600000x148) (1 : Fin 2) (pieces a0 a1 a2 a3) concatenates_S1600000x64_S1600000x64_S1600000x4_S1600000x4_S1600000x12_S1600000x148_d1
    (ix2 e ⟨64 + 64 + t.val, h⟩) 2 (show (2 : ℕ) < 5 by omega) S1600000x4 (val_main_v25 (F := Ideal) a1 a3) rfl rfl 128 rfl (ix2 e t)
    (fun b hb => match b with | ⟨0, _⟩ => rfl | ⟨1, _⟩ => absurd rfl hb) rfl).trans ?_
  refine (LibRowScatter.gather_rows_apply (by omega) gather_S100000x4_S1600000x1_S1600000x4_1_0_n_n_0_1_14_wf (val_main_v18 (F := Ideal) a3) (val_main_v24 (F := Ideal) a1) e t).trans ?_
  rw [src_col_again]
  exact node_bits_entry a3 _ t

theorem row_dst_bits (e : Fin 1600000) (t : Fin 4) (h : 64 + 64 + 4 + t.val < 148) :
    val_main_v34 (F := Ideal) a0 a1 a2 a3 (ix2 e ⟨64 + 64 + 4 + t.val, h⟩) = EdgeFeature.bit (a3 (ix1 (dstRow a1 e))) t.val := by
  unfold val_main_v34
  refine (concatenate_apply_piece (α := EReal) (t := S1600000x148) (1 : Fin 2) (pieces a0 a1 a2 a3) concatenates_S1600000x64_S1600000x64_S1600000x4_S1600000x4_S1600000x12_S1600000x148_d1
    (ix2 e ⟨64 + 64 + 4 + t.val, h⟩) 3 (show (3 : ℕ) < 5 by omega) S1600000x4 (val_main_v32 (F := Ideal) a1 a3) rfl rfl 132 rfl (ix2 e t)
    (fun b hb => match b with | ⟨0, _⟩ => rfl | ⟨1, _⟩ => absurd rfl hb) rfl).trans ?_
  refine (LibRowScatter.gather_rows_apply (by omega) gather_S100000x4_S1600000x1_S1600000x4_1_0_n_n_0_1_14_wf (val_main_v18 (F := Ideal) a3) (val_main_v31 (F := Ideal) a1) e t).trans ?_
  rw [dst_col_again]
  exact node_bits_entry a3 _ t

theorem row_edge_bits (e : Fin 1600000) (k : Fin 12) (h : 64 + 64 + 4 + 4 + k.val < 148) :
    val_main_v34 (F := Ideal) a0 a1 a2 a3 (ix2 e ⟨64 + 64 + 4 + 4 + k.val, h⟩) = EdgeFeature.bit (a2 (ix1 e)) k.val := by
  unfold val_main_v34
  refine (concatenate_apply_piece (α := EReal) (t := S1600000x148) (1 : Fin 2) (pieces a0 a1 a2 a3) concatenates_S1600000x64_S1600000x64_S1600000x4_S1600000x4_S1600000x12_S1600000x148_d1
    (ix2 e ⟨64 + 64 + 4 + 4 + k.val, h⟩) 4 (show (4 : ℕ) < 5 by omega) S1600000x12 (val_main_v33 (F := Ideal) a2) rfl rfl 136 rfl (ix2 e k)
    (fun b hb => match b with | ⟨0, _⟩ => rfl | ⟨1, _⟩ => absurd rfl hb) rfl).trans ?_
  exact edge_bits_entry a2 e k

end

/-! ## The reference's array before the final reshape -/

/-- W transposed at (j, o) is W(o, j). -/
theorem wT_entry (a4 : FVec Ideal S9x148 .f32) (j : Fin 148) (o : Fin 9) :
    val_main_v35 (F := Ideal) a4 (ix2 j o) = a4 (ix2 o j) := by
  rw [val_main_v35_apply]
  exact congrArg a4 (funext fun a => match a with | ⟨0, _⟩ => rfl | ⟨1, _⟩ => rfl)

/-- The product's operand indices at entry (e, o) and column k: (e, k) on the left, (k, o) on the right. -/
theorem lidx_eq (e : Fin 1600000) (o : Fin 9) (k : Fin 148) : lidx_main_v36 (ix2 e o) k = ix2 e k :=
  funext fun a => match a with | ⟨0, _⟩ => rfl | ⟨1, _⟩ => rfl
theorem ridx_eq (e : Fin 1600000) (o : Fin 9) (k : Fin 148) : ridx_main_v36 (ix2 e o) k = ix2 k o :=
  funext fun a => match a with | ⟨0, _⟩ => rfl | ⟨1, _⟩ => rfl

/-- THE REFERENCE IS THE EDGE MAP: tanh of the 148-wide inner product is tanh of the looked-up node parts plus the
    edge part. -/
theorem ref_is_edgeMap (a0 : FVec Ideal S100000x64 .f32) (a1 : IVec S2x1600000 32) (a2 : IVec S1600000 32)
    (a3 : IVec S100000 32) (a4 : FVec Ideal S9x148 .f32) :
    val_main_v37 (F := Ideal) a0 a1 a2 a3 a4
      = EdgeFeature.edgeMap a0 a3 a4 a2 (val_main_v9 (F := Ideal) a1) (val_main_v16 (F := Ideal) a1) := by
  funext i
  obtain ⟨e, o, rfl⟩ : ∃ (e : Fin 1600000) (o : Fin 9), i = ix2 e o := ⟨i 0, i 1, eq_ix2 i⟩
  rw [val_main_v37_apply, val_main_v36_apply]
  show Ideal.tanh _ = Ideal.tanh _
  refine congrArg Ideal.tanh ?_
  refine (Finset.sum_congr rfl fun k _ => congrArg₂ (· * ·)
    (congrArg (val_main_v34 (F := Ideal) a0 a1 a2 a3) (lidx_eq e o k)) (congrArg (val_main_v35 (F := Ideal) a4) (ridx_eq e o k))).trans ?_
  refine (EdgeFeature.sum_five 64 64 4 4 12 (fun k : Fin (64 + 64 + 4 + 4 + 12) =>
    val_main_v34 (F := Ideal) a0 a1 a2 a3 (ix2 e k) * val_main_v35 (F := Ideal) a4 (ix2 k o))).trans ?_
  refine Eq.trans ?_ (EdgeFeature.five_ranges_regroup a0 a3 a4 a2 (srcRow a1 e) (dstRow a1 e) e o)
  refine congrArg₂ (· + ·) (congrArg₂ (· + ·) (congrArg₂ (· + ·) (congrArg₂ (· + ·) ?_ ?_) ?_) ?_) ?_
  · exact Finset.sum_congr rfl fun c _ => congrArg₂ (· * ·) (row_src_feat a0 a1 a2 a3 e c (by omega)) (wT_entry a4 ⟨c.val, by omega⟩ o)
  · exact Finset.sum_congr rfl fun c _ => congrArg₂ (· * ·) (row_dst_feat a0 a1 a2 a3 e c (by omega)) (wT_entry a4 ⟨64 + c.val, by omega⟩ o)
  · exact Finset.sum_congr rfl fun t _ => congrArg₂ (· * ·) (row_src_bits a0 a1 a2 a3 e t (by omega)) (wT_entry a4 ⟨64 + 64 + t.val, by omega⟩ o)
  · exact Finset.sum_congr rfl fun t _ => congrArg₂ (· * ·) (row_dst_bits a0 a1 a2 a3 e t (by omega)) (wT_entry a4 ⟨64 + 64 + 4 + t.val, by omega⟩ o)
  · exact Finset.sum_congr rfl fun k _ => congrArg₂ (· * ·) (row_edge_bits a0 a1 a2 a3 e k (by omega)) (wT_entry a4 ⟨64 + 64 + 4 + 4 + k.val, by omega⟩ o)

end Cert.ReferenceIdeal.RefValue

end
-- ==== Proof.Claims.lean ====
/-
  The claims.

  Both idealized programs compute, for every edge e and output position o,
  tanh (W(o, .) . [features of source, features of destination, type bits of source, type bits of destination,
  type bits of the edge]). The reference forms the 148-wide row and multiplies; the kernel program multiplies per
  NODE first (two tables of node parts), looks the node parts up per edge, and adds the edge part inside the launch.
  The two agree because a sum over the 148 columns is the sum over its five ranges, regrouped — commutativity and
  associativity of addition on the extended reals only, so the inputs' finiteness is never used. The rows both
  programs look up are the same function of the edge index (a negative word has the table height added, the result
  is clamped into the table), so an index outside the table changes nothing in the comparison.
  The frames of the two kernel programs are the generated ones; the reference's is its generated run with the result
  dropped; no operation was rewritten by the idealization, so there is nothing to preserve.
-/
import proofs.«162660_j31842887533251_2_alg».proof.Defs
import proofs.«162660_j31842887533251_2_alg».proof.Proof.Gen.Kernel.Frame
import proofs.«162660_j31842887533251_2_alg».proof.Proof.Gen.KernelIdeal.Frame
import proofs.«162660_j31842887533251_2_alg».proof.Proof.Gen.ReferenceIdeal.Run
import proofs.«162660_j31842887533251_2_alg».proof.Proof.Gen.ReferenceIdeal.Read
import proofs.«162660_j31842887533251_2_alg».proof.Proof.Gen.Pre_finite_inputs
import proofs.«162660_j31842887533251_2_alg».proof.Proof.KernelValue
import proofs.«162660_j31842887533251_2_alg».proof.Proof.RefValue

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's column of source rows is the kernel program's: the same operations of the edge index. -/
theorem src_col (a1 : IVec Cert.KernelIdeal.S2x1600000 32) :
    Cert.ReferenceIdeal.Read.val_main_v9 (F := Ideal) a1 = Cert.KernelIdeal.Host.asColumn (Cert.KernelIdeal.Host.endRow0 a1) := rfl
/-- And so is its column of destination rows. -/
theorem dst_col (a1 : IVec Cert.KernelIdeal.S2x1600000 32) :
    Cert.ReferenceIdeal.Read.val_main_v16 (F := Ideal) a1 = Cert.KernelIdeal.Host.asColumn (Cert.KernelIdeal.Host.endRow1 a1) := rfl

/-- From memories agreeing on the arguments both programs end at the reshaped edge map of the arguments. -/
theorem algebraic : Cert.algebraic_KernelIdeal_ReferenceIdeal := by
  intro m ρ m' ρ' _ hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2.1, (hagree c).2.2.2.1,
    (hagree c).2.2.2.2]
  unfold Cert.ReferenceIdeal.Read.val_main_v38
  rw [Cert.ReferenceIdeal.RefValue.ref_is_edgeMap, src_col, dst_col]
  rfl

end Cert.Proof.Claims

end
-- ==== Proof.lean ====
/- The proof of `Cert.Claim`: the per-edge 3 x 3 maps of a typed graph, tanh (W . [x_src, x_dst, type bits]),
   computed with the linear layer pushed through the node gather, against the direct computation.
   Proof/EdgeFeature.lean states the edge map and the one law (a sum over 148 columns is the sum over five ranges,
   regrouped); Proof/KernelBody.lean reads one block of 8000 edges through the kernel body at an entry;
   Proof/KernelArray.lean puts the 200 blocks together into the whole output array; Proof/NodeTables.lean reads
   what the host computes before the launch (the two node tables, their lookups, the columns); Proof/KernelValue.lean
   concludes the kernel program's run; Proof/RefValue.lean reads the reference at an entry range by range;
   Proof/Claims.lean assembles the five claims. The Lib modules are general lemmas on row lookups, dense products,
   and column forms. The witnesses of the programs' stated facts are the generated instances. -/
import proofs.«162660_j31842887533251_2_alg».proof.Defs
import proofs.«162660_j31842887533251_2_alg».proof.Proof.Gen.Kernel
import proofs.«162660_j31842887533251_2_alg».proof.Proof.Gen.Kernel.Skeleton
import proofs.«162660_j31842887533251_2_alg».proof.Proof.Gen.Kernel.Launch
import proofs.«162660_j31842887533251_2_alg».proof.Proof.Gen.Kernel.Points
import proofs.«162660_j31842887533251_2_alg».proof.Proof.Gen.Kernel.Frame
import proofs.«162660_j31842887533251_2_alg».proof.Proof.Gen.KernelIdeal
import proofs.«162660_j31842887533251_2_alg».proof.Proof.Gen.KernelIdeal.Skeleton
import proofs.«162660_j31842887533251_2_alg».proof.Proof.Gen.KernelIdeal.Launch
import proofs.«162660_j31842887533251_2_alg».proof.Proof.Gen.KernelIdeal.Points
import proofs.«162660_j31842887533251_2_alg».proof.Proof.Gen.KernelIdeal.Frame
import proofs.«162660_j31842887533251_2_alg».proof.Proof.Gen.ReferenceIdeal
import proofs.«162660_j31842887533251_2_alg».proof.Proof.Gen.ReferenceIdeal.Run
import proofs.«162660_j31842887533251_2_alg».proof.Proof.Gen.ReferenceIdeal.Read
import proofs.«162660_j31842887533251_2_alg».proof.Proof.Gen.Pre_finite_inputs
import proofs.«162660_j31842887533251_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
